-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64 : Shape := ⟨3, ![8, 64, 64]⟩
abbrev S_ : Shape := ⟨0, ![]⟩

class Facts : Prop where
  bcast_S_S8x64x64 : S_.BroadcastsInDim S8x64x64 (![] : Fin 0 → Fin S8x64x64.rank)
  reducesTo_S8x64x64_S_d0_1_2 : S8x64x64.ReducesTo [0, 1, 2] S_
  h_S_ : 0 < S_.numel

variable [Facts]

def fn {F : FTy → Type} [FloatOps F] (main_arg0 : FVec F S8x64x64 .f32) (main_arg1 : FVec F S8x64x64 .f32) : IVec S_ 1 :=
  let main_v0 : FVec F S8x64x64 .f32 := Host.absf main_arg0
  let main_cst : FVec F S_ .f32 := constant S_ .f32 0x7F800000#32
  let main_v1 : FVec F S8x64x64 .f32 := broadcastInDim S8x64x64 ![] bcast_S_S8x64x64 main_cst
  let main_v2 : IVec S8x64x64 1 := cmpf .olt main_v0 main_v1
  let main_c : IVec S_ 1 := constantI S_ 1 1#1
  let main_v3 : IVec S_ 1 := (fun x v => Host.reduce IntOp.andi x v reducesTo_S8x64x64_S_d0_1_2 h_S_) main_v2 main_c
  let main_v4 : FVec F S8x64x64 .f32 := Host.absf main_arg1
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  main_v8
-- ==== Kernel.lean ====
abbrev S8x64x64 : Shape := ⟨3, ![8, 64, 64]⟩
abbrev S512 : Shape := ⟨1, ![512]⟩
abbrev S512x1 : Shape := ⟨2, ![512, 1]⟩
abbrev S8 : Shape := ⟨1, ![8]⟩
abbrev S1x8 : Shape := ⟨2, ![1, 8]⟩
abbrev S_ : Shape := ⟨0, ![]⟩
abbrev S512x8 : Shape := ⟨2, ![512, 8]⟩
abbrev S64 : Shape := ⟨1, ![64]⟩
abbrev S1x64 : Shape := ⟨2, ![1, 64]⟩
abbrev S512x64 : Shape := ⟨2, ![512, 64]⟩
abbrev S4096 : Shape := ⟨1, ![4096]⟩
abbrev S1x4096 : Shape := ⟨2, ![1, 4096]⟩
abbrev S64x1 : Shape := ⟨2, ![64, 1]⟩
abbrev S64x4096 : Shape := ⟨2, ![64, 4096]⟩
abbrev S8x4096x4096 : Shape := ⟨3, ![8, 4096, 4096]⟩
abbrev S1x8x64 : Shape := ⟨3, ![1, 8, 64]⟩
abbrev S1x64x64 : Shape := ⟨3, ![1, 64, 64]⟩
abbrev S64x1024 : Shape := ⟨2, ![64, 1024]⟩
abbrev S1x512x1024 : Shape := ⟨3, ![1, 512, 1024]⟩
abbrev S8x64 : Shape := ⟨2, ![8, 64]⟩
abbrev S64x64 : Shape := ⟨2, ![64, 64]⟩
abbrev S8x1024 : Shape := ⟨2, ![8, 1024]⟩
abbrev S512x1024 : Shape := ⟨2, ![512, 1024]⟩

abbrev nBuf : Space → Nat
  | .hbm => 111
  | .vmem => 12
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S512, .i32⟩
  | .hbm, ⟨3, _⟩ => ⟨S512x1, .i32⟩
  | .hbm, ⟨4, _⟩ => ⟨S8, .i32⟩
  | .hbm, ⟨5, _⟩ => ⟨S1x8, .i32⟩
  | .hbm, ⟨6, _⟩ => ⟨S_, .i32⟩
  | .hbm, ⟨7, _⟩ => ⟨S_, .i32⟩
  | .hbm, ⟨8, _⟩ => ⟨S512x1, .i32⟩
  | .hbm, ⟨9, _⟩ => ⟨S512x1, .i32⟩
  | .hbm, ⟨10, _⟩ => ⟨S512x1, .i32⟩
  | .hbm, ⟨11, _⟩ => ⟨S_, .i32⟩
  | .hbm, ⟨12, _⟩ => ⟨S512x1, .i32⟩
  | .hbm, ⟨13, _⟩ => ⟨S512x1, .i1⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S512x1, .i1⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .i32⟩
  | .hbm, ⟨24, _⟩ => ⟨S512x8, .i32⟩
  | .hbm, ⟨25, _⟩ => ⟨S512x8, .i32⟩
  | .hbm, ⟨26, _⟩ => ⟨S512x8, .i1⟩
  | .hbm, ⟨27, _⟩ => ⟨S512x8, .f32⟩
  | .hbm, ⟨28, _⟩ => ⟨S64, .i32⟩
  | .hbm, ⟨29, _⟩ => ⟨S1x64, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S512x1, .i32⟩
  | .hbm, ⟨37, _⟩ => ⟨S512x1, .i32⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S_, .i32⟩
  | .hbm, ⟨42, _⟩ => ⟨S512x1, .i32⟩
  | .hbm, ⟨43, _⟩ => ⟨S512x1, .i1⟩
  | .hbm, ⟨44, _⟩ => ⟨S_, .i32⟩
  | .hbm, ⟨45, _⟩ => ⟨S_, .i1⟩
  | .hbm, ⟨46, _⟩ => ⟨S512x1, .i1⟩
  | .hbm, ⟨47, _⟩ => ⟨S512x1, .i1⟩
  | .hbm, ⟨48, _⟩ => ⟨S512x1, .i1⟩
  | .hbm, ⟨49, _⟩ => ⟨S512x1, .i32⟩
  | .hbm, ⟨50, _⟩ => ⟨S512x1, .i32⟩
  | .hbm, ⟨51, _⟩ => ⟨S512x1, .i32⟩
  | .hbm, ⟨52, _⟩ => ⟨S512x64, .i32⟩
  | .hbm, ⟨53, _⟩ => ⟨S512x64, .i32⟩
  | .hbm, ⟨54, _⟩ => ⟨S512x64, .i1⟩
  | .hbm, ⟨55, _⟩ => ⟨S512x64, .f32⟩
  | .hbm, ⟨56, _⟩ => ⟨S4096, .i32⟩
  | .hbm, ⟨57, _⟩ => ⟨S1x4096, .i32⟩
  | .hbm, ⟨58, _⟩ => ⟨S64, .i32⟩
  | .hbm, ⟨59, _⟩ => ⟨S64x1, .i32⟩
  | .hbm, ⟨60, _⟩ => ⟨S_, .i32⟩
  | .hbm, ⟨61, _⟩ => ⟨S_, .i32⟩
  | .hbm, ⟨62, _⟩ => ⟨S1x4096, .i32⟩
  | .hbm, ⟨63, _⟩ => ⟨S1x4096, .i32⟩
  | .hbm, ⟨64, _⟩ => ⟨S1x4096, .i32⟩
  | .hbm, ⟨65, _⟩ => ⟨S_, .i32⟩
  | .hbm, ⟨66, _⟩ => ⟨S1x4096, .i32⟩
  | .hbm, ⟨67, _⟩ => ⟨S1x4096, .i1⟩
  | .hbm, ⟨68, _⟩ => ⟨S1x4096, .i32⟩
  | .hbm, ⟨69, _⟩ => ⟨S1x4096, .i32⟩
  | .hbm, ⟨70, _⟩ => ⟨S_, .i32⟩
  | .hbm, ⟨71, _⟩ => ⟨S1x4096, .i32⟩
  | .hbm, ⟨72, _⟩ => ⟨S1x4096, .i1⟩
  | .hbm, ⟨73, _⟩ => ⟨S1x4096, .i1⟩
  | .hbm, ⟨74, _⟩ => ⟨S_, .i32⟩
  | .hbm, ⟨75, _⟩ => ⟨S1x4096, .i32⟩
  | .hbm, ⟨76, _⟩ => ⟨S1x4096, .i32⟩
  | .hbm, ⟨77, _⟩ => ⟨S1x4096, .i32⟩
  | .hbm, ⟨78, _⟩ => ⟨S64x4096, .i32⟩
  | .hbm, ⟨79, _⟩ => ⟨S64x4096, .i32⟩
  | .hbm, ⟨80, _⟩ => ⟨S64x4096, .i1⟩
  | .hbm, ⟨81, _⟩ => ⟨S64x4096, .f32⟩
  | .hbm, ⟨82, _⟩ => ⟨S64, .i32⟩
  | .hbm, ⟨83, _⟩ => ⟨S64x1, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S1x4096, .i32⟩
  | .hbm, ⟨91, _⟩ => ⟨S1x4096, .i32⟩
  | .hbm, ⟨92, _⟩ => ⟨S_, .i32⟩
  | .hbm, ⟨93, _⟩ => ⟨S1x4096, .i32⟩
  | .hbm, ⟨94, _⟩ => ⟨S1x4096, .i1⟩
  | .hbm, ⟨95, _⟩ => ⟨S_, .i32⟩
  | .hbm, ⟨96, _⟩ => ⟨S1x4096, .i32⟩
  | .hbm, ⟨97, _⟩ => ⟨S1x4096, .i1⟩
  | .hbm, ⟨98, _⟩ => ⟨S_, .i32⟩
  | .hbm, ⟨99, _⟩ => ⟨S_, .i1⟩
  | .hbm, ⟨100, _⟩ => ⟨S1x4096, .i1⟩
  | .hbm, ⟨101, _⟩ => ⟨S1x4096, .i1⟩
  | .hbm, ⟨102, _⟩ => ⟨S1x4096, .i1⟩
  | .hbm, ⟨103, _⟩ => ⟨S1x4096, .i32⟩
  | .hbm, ⟨104, _⟩ => ⟨S1x4096, .i32⟩
  | .hbm, ⟨105, _⟩ => ⟨S1x4096, .i32⟩
  | .hbm, ⟨106, _⟩ => ⟨S64x4096, .i32⟩
  | .hbm, ⟨107, _⟩ => ⟨S64x4096, .i32⟩
  | .hbm, ⟨108, _⟩ => ⟨S64x4096, .i1⟩
  | .hbm, ⟨109, _⟩ => ⟨S64x4096, .f32⟩
  | .hbm, ⟨110, _⟩ => ⟨S8x4096x4096, .f32⟩
  | .local _ .vmem, ⟨0, _⟩ => ⟨S1x8x64, .f32⟩
  | .local _ .vmem, ⟨1, _⟩ => ⟨S1x8x64, .f32⟩
  | .local _ .vmem, ⟨2, _⟩ => ⟨S1x64x64, .f32⟩
  | .local _ .vmem, ⟨3, _⟩ => ⟨S1x64x64, .f32⟩
  | .local _ .vmem, ⟨4, _⟩ => ⟨S512x8, .f32⟩
  | .local _ .vmem, ⟨5, _⟩ => ⟨S64x1024, .f32⟩
  | .local _ .vmem, ⟨6, _⟩ => ⟨S64x1024, .f32⟩
  | .local _ .vmem, ⟨7, _⟩ => ⟨S512x64, .f32⟩
  | .local _ .vmem, ⟨8, _⟩ => ⟨S64x1024, .f32⟩
  | .local _ .vmem, ⟨9, _⟩ => ⟨S64x1024, .f32⟩
  | .local _ .vmem, ⟨10, _⟩ => ⟨S1x512x1024, .f32⟩
  | .local _ .vmem, ⟨11, _⟩ => ⟨S1x512x1024, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_2 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S512x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bcast_S512_S512x1_0 : S512.BroadcastsInDim S512x1 (![0] : Fin 1 → Fin S512x1.rank)
  bcast_S8_S1x8_1 : S8.BroadcastsInDim S1x8 (![1] : Fin 1 → Fin S1x8.rank)
  bcast_S_S512x1 : S_.BroadcastsInDim S512x1 (![] : Fin 0 → Fin S512x1.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  bcast_S64_S1x64_1 : S64.BroadcastsInDim S1x64 (![1] : Fin 1 → Fin S1x64.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S4096_S1x4096_1 : S4096.BroadcastsInDim S1x4096 (![1] : Fin 1 → Fin S1x4096.rank)
  bcast_S64_S64x1_0 : S64.BroadcastsInDim S64x1 (![0] : Fin 1 → Fin S64x1.rank)
  bcast_S_S1x4096 : S_.BroadcastsInDim S1x4096 (![] : Fin 0 → Fin S1x4096.rank)
  bcast_S1x4096_S64x4096_0_1 : S1x4096.BroadcastsInDim S64x4096 (![0, 1] : Fin 2 → Fin S64x4096.rank)
  bcast_S64x1_S64x4096_0_1 : S64x1.BroadcastsInDim S64x4096 (![0, 1] : Fin 2 → Fin S64x4096.rank)
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S8x64_S64x1024_S8x1024_1_0_0_1_n_n_wf : DotDims.WF S8x64 S64x1024 S8x1024 [1] [0] [0] [1] [] []
  dot_S512x8_S8x1024_S512x1024_1_0_0_1_n_n_wf : DotDims.WF S512x8 S8x1024 S512x1024 [1] [0] [0] [1] [] []
  dot_S512x64_S64x64_S512x64_1_0_0_1_n_n_wf : DotDims.WF S512x64 S64x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64.size a ≤ S8x64x64.size a
  hwx0_0 : ∀ i : grid0.Coords, EltTy.bits .f32 = 32 ∨ (Rect.block (s := S8x64x64) S1x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S512x8.size a
  hwx0_2 : ∀ i : grid0.Coords, EltTy.bits .f32 = 32 ∨ (Rect.block (s := S512x8) S512x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .f32 = 32 ∨ (Rect.block (s := S64x4096) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .f32 = 32 ∨ (Rect.block (s := S512x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x4096.size a
  hwx0_5 : ∀ i : grid0.Coords, EltTy.bits .f32 = 32 ∨ (Rect.block (s := S64x4096) S64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S8x4096x4096.size a
  hwx0_6 : ∀ i : grid0.Coords, EltTy.bits .f32 = 32 ∨ (Rect.block (s := S8x4096x4096) S1x512x1024.size (cc0_transform_6 i) (hinb0_6 i)).WholeWords (EltTy.packing .f32)

variable [Facts₀]

def dot_S8x64_S64x1024_S8x1024_1_0_0_1_n_n : DotDims S8x64 S64x1024 S8x1024 where
  lhsContracting := [1]
  rhsContracting := [0]
  lhsNonContracting := [0]
  rhsNonContracting := [1]
  lhsBatch := []
  rhsBatch := []
  wf := dot_S8x64_S64x1024_S8x1024_1_0_0_1_n_n_wf
def dot_S512x8_S8x1024_S512x1024_1_0_0_1_n_n : DotDims S512x8 S8x1024 S512x1024 where
  lhsContracting := [1]
  rhsContracting := [0]
  lhsNonContracting := [0]
  rhsNonContracting := [1]
  lhsBatch := []
  rhsBatch := []
  wf := dot_S512x8_S8x1024_S512x1024_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x64x64 : Shape := ⟨3, ![8, 64, 64]⟩
abbrev S8x64x1x64x1 : Shape := ⟨5, ![8, 64, 1, 64, 1]⟩
abbrev S8x1x64x1x64 : Shape := ⟨5, ![8, 1, 64, 1, 64]⟩
abbrev S8x64x64x64x64 : Shape := ⟨5, ![8, 64, 64, 64, 64]⟩
abbrev S8x4096x4096 : Shape := ⟨3, ![8, 4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S8x64x1x64x1, .f32⟩
  | .hbm, ⟨3, _⟩ => ⟨S8x1x64x1x64, .f32⟩
  | .hbm, ⟨4, _⟩ => ⟨S8x64x64x64x64, .f32⟩
  | .hbm, ⟨5, _⟩ => ⟨S8x64x64x64x64, .f32⟩
  | .hbm, ⟨6, _⟩ => ⟨S8x64x64x64x64, .f32⟩
  | .hbm, ⟨7, _⟩ => ⟨S8x4096x4096, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S8x64x64_S8x64x1x64x1_0_1_3 : S8x64x64.BroadcastsInDim S8x64x1x64x1 (![0, 1, 3] : Fin 3 → Fin S8x64x1x64x1.rank)
  bcast_S8x64x64_S8x1x64x1x64_0_2_4 : S8x64x64.BroadcastsInDim S8x1x64x1x64 (![0, 2, 4] : Fin 3 → Fin S8x1x64x1x64.rank)
  bcast_S8x64x1x64x1_S8x64x64x64x64_0_1_2_3_4 : S8x64x1x64x1.BroadcastsInDim S8x64x64x64x64 (![0, 1, 2, 3, 4] : Fin 5 → Fin S8x64x64x64x64.rank)
  bcast_S8x1x64x1x64_S8x64x64x64x64_0_1_2_3_4 : S8x1x64x1x64.BroadcastsInDim S8x64x64x64x64 (![0, 1, 2, 3, 4] : Fin 5 → Fin S8x64x64x64x64.rank)
  shapeCasts_S8x64x64x64x64_S8x4096x4096 : S8x64x64x64x64.ShapeCasts S8x4096x4096

variable [Facts₀]

class Facts : Prop extends Facts₀ where

variable [Facts]
-- ==== Proof.Spec.lean ====
/-
  The batched Kronecker product, and that the reference computes it.

  For matrices `A`, `B` of a batch (64 × 64 each) the product's entry in row `R`, column `C` (both below 4096) is
  `A[R / 64, C / 64] * B[R % 64, C % 64]`: row `R` is row `R % 64` of the copy of `B` scaled by the entry of `A` in
  row `R / 64`. The reference forms all products `A[b, i, j] * B[b, p, q]` in a rank-5 array indexed
  `(b, i, p, j, q)` and reshapes it to `(b, i * 64 + p, j * 64 + q)`; read back at `(b, R, C)` the reshape's
  row-major position gives `i = R / 64`, `p = R % 64`, `j = C / 64`, `q = C % 64`.
-/
import proofs.«176662_j19499151524244_2_alg».proof.Proof.Gen.ReferenceIdeal.Read
import Idealize.ShloMosaic.Lib.ValueIdx

noncomputable section

namespace Cert.Kron

open Idealize.ShloMosaic Idealize.ShloMosaic.ValueIdx

/-- The batched Kronecker product of two stacks of eight 64 × 64 matrices, index by index. -/
def kron (A B : (⟨3, ![8, 64, 64]⟩ : Shape).Idx → EReal) : (⟨3, ![8, 4096, 4096]⟩ : Shape).Idx → EReal := fun i =>
  A (ix3 (⟨(i 0).val, (i 0).isLt⟩ : Fin 8)
      (⟨(i 1).val / 64, by have h : (i 1).val < 4096 := (i 1).isLt; omega⟩ : Fin 64)
      (⟨(i 2).val / 64, by have h : (i 2).val < 4096 := (i 2).isLt; omega⟩ : Fin 64))
    * B (ix3 (⟨(i 0).val, (i 0).isLt⟩ : Fin 8)
      (⟨(i 1).val % 64, by omega⟩ : Fin 64)
      (⟨(i 2).val % 64, by omega⟩ : Fin 64))

open Cert.ReferenceIdeal Cert.ReferenceIdeal.Read in
/-- The reference's result is the Kronecker product of its arguments. -/
theorem reference_eq (x0 x1 : (⟨3, ![8, 64, 64]⟩ : Shape).Idx → EReal) :
    val_main_v5 (F := Ideal) x0 x1 = kron x0 x1 := by
  funext i
  have h0 : (i 0).val < 8 := (i 0).isLt
  have h1 : (i 1).val < 4096 := (i 1).isLt
  have h2 : (i 2).val < 4096 := (i 2).isLt
  rw [val_main_v5_apply, val_main_v4_apply, val_main_v2_apply, val_main_v0_apply, val_main_v3_apply, val_main_v1_apply]
  have e0 : idx_main_v0 (idx_main_v2 (idx_main_v5 i))
      = ix3 (⟨(i 0).val, (i 0).isLt⟩ : Fin 8)
          (⟨(i 1).val / 64, by omega⟩ : Fin 64) (⟨(i 2).val / 64, by omega⟩ : Fin 64) := by
    funext a; apply Fin.ext
    match a with
    | ⟨0, _⟩ => show (((i 0).val * 4096 + (i 1).val) * 4096 + (i 2).val) / 16777216 = (i 0).val; omega
    | ⟨1, _⟩ => show (((i 0).val * 4096 + (i 1).val) * 4096 + (i 2).val) / 262144 % 64 = (i 1).val / 64; omega
    | ⟨2, _⟩ => show (((i 0).val * 4096 + (i 1).val) * 4096 + (i 2).val) / 64 % 64 = (i 2).val / 64; omega
  have e1 : idx_main_v1 (idx_main_v3 (idx_main_v5 i))
      = ix3 (⟨(i 0).val, (i 0).isLt⟩ : Fin 8)
          (⟨(i 1).val % 64, by omega⟩ : Fin 64) (⟨(i 2).val % 64, by omega⟩ : Fin 64) := by
    funext a; apply Fin.ext
    match a with
    | ⟨0, _⟩ => show (((i 0).val * 4096 + (i 1).val) * 4096 + (i 2).val) / 16777216 = (i 0).val; omega
    | ⟨1, _⟩ => show (((i 0).val * 4096 + (i 1).val) * 4096 + (i 2).val) / 4096 % 64 = (i 1).val % 64; omega
    | ⟨2, _⟩ => show (((i 0).val * 4096 + (i 1).val) * 4096 + (i 2).val) % 64 = (i 2).val % 64; omega
  rw [e0, e1]
  rfl

end Cert.Kron

end
-- ==== Proof.LibNatWords.lean ====
/-
  Quotient and remainder of small natural numbers, computed on 32-bit signed words.

  A natural number below 2^31 is the same number whether its word is read signed or unsigned, so the signed
  operations on two such words compute the natural-number quotient and remainder. On top of the two
  operations sit jax's integer `floor_divide` and `remainder`, which lower to the truncated quotient /
  remainder followed by a correction that applies only when the operands' signs differ: for two such words
  the correction never applies, and the results are again `n / d` and `n % d`.
-/
import Idealize.ShloMosaic.PureOps.Ideal
import Idealize.ShloMosaic.Lib.WordArith
import Idealize.ShloMosaic.Lib.ValueIdx

namespace Cert.NatWords

open Idealize.ShloMosaic Idealize.ShloMosaic.WordArith Idealize.ShloMosaic.ValueIdx

/-- The sign of a word, as a word: `0`, `-1` or `1` (one element of the integer `sign`). -/
def sgn (w : BitVec 32) : BitVec 32 := if w = 0 then 0 else if w.msb then -1 else 1

/-- jax's integer `floor_divide`, as it lowers: the truncated quotient, less one when the operands' signs differ
    and the remainder is not zero. -/
def floorDiv (u : ArithUnit) (x y : BitVec 32) : BitVec 32 :=
  Scalar.select (IntOp.andi (IntOp.cmpi .ne (sgn x) (sgn y)) (IntOp.cmpi .ne (IntOp.remsi u x y) 0#32))
    (IntOp.subi (IntOp.divsi u x y) 1#32) (IntOp.divsi u x y)

/-- jax's integer `remainder`, as it lowers: a zero divisor replaced by one, the truncated remainder, plus the
    divisor when the remainder is not zero and its sign differs from the divisor's. -/
def pyMod (u : ArithUnit) (x y : BitVec 32) : BitVec 32 :=
  Scalar.select
    (IntOp.andi
      (IntOp.cmpi .ne (IntOp.cmpi .slt (IntOp.remsi u x (Scalar.select (IntOp.cmpi .eq y 0#32) 1#32 y)) 0#32)
        (IntOp.cmpi .slt (Scalar.select (IntOp.cmpi .eq y 0#32) 1#32 y) 0#32))
      (IntOp.cmpi .ne (IntOp.remsi u x (Scalar.select (IntOp.cmpi .eq y 0#32) 1#32 y)) 0#32))
    (IntOp.addi (IntOp.remsi u x (Scalar.select (IntOp.cmpi .eq y 0#32) 1#32 y)) (Scalar.select (IntOp.cmpi .eq y 0#32) 1#32 y))
    (IntOp.remsi u x (Scalar.select (IntOp.cmpi .eq y 0#32) 1#32 y))

variable {n d : Nat}

theorem ofNat_ne_zero (hd0 : 0 < d) (hd : d < 2 ^ 31) : BitVec.ofNat 32 d ≠ 0#32 := by
  intro h
  have h' := congrArg BitVec.toInt h
  rw [toInt_ofNat_small d hd] at h'
  simp at h'
  omega

theorem ofNat_ne_neg_one (hd : d < 2 ^ 31) : BitVec.ofNat 32 d ≠ -1#32 := by
  intro h
  have h' := congrArg BitVec.toInt h
  rw [toInt_ofNat_small d hd] at h'
  have e : (-1#32 : BitVec 32).toInt = -1 := by decide
  rw [e] at h'
  omega

theorem not_corner (hd0 : 0 < d) (hd : d < 2 ^ 31) : ¬ IntOp.SDivCorner (BitVec.ofNat 32 n) (BitVec.ofNat 32 d) := by
  rintro (h | ⟨_, h⟩)
  · exact ofNat_ne_zero hd0 hd h
  · exact ofNat_ne_neg_one hd h

/-- The signed quotient of two small naturals is their quotient. -/
theorem divsi_ofNat (u : ArithUnit) (hn : n < 2 ^ 31) (hd0 : 0 < d) (hd : d < 2 ^ 31) :
    IntOp.divsi u (BitVec.ofNat 32 n) (BitVec.ofNat 32 d) = BitVec.ofNat 32 (n / d) := by
  have hq : n / d < 2 ^ 31 := lt_of_le_of_lt (Nat.div_le_self n d) hn
  unfold IntOp.divsi
  rw [if_neg (not_corner hd0 hd)]
  apply BitVec.eq_of_toInt_eq
  rw [BitVec.toInt_sdiv_of_ne_or_ne _ _ (Or.inr (ofNat_ne_neg_one hd)), toInt_ofNat_small n hn, toInt_ofNat_small d hd,
    toInt_ofNat_small _ hq]
  exact (Int.ofNat_tdiv n d).symm

/-- The signed remainder of two small naturals is their remainder. -/
theorem remsi_ofNat (u : ArithUnit) (hn : n < 2 ^ 31) (hd0 : 0 < d) (hd : d < 2 ^ 31) :
    IntOp.remsi u (BitVec.ofNat 32 n) (BitVec.ofNat 32 d) = BitVec.ofNat 32 (n % d) := by
  have hr : n % d < 2 ^ 31 := lt_of_le_of_lt (Nat.mod_le n d) hn
  unfold IntOp.remsi
  rw [if_neg (not_corner hd0 hd)]
  apply BitVec.eq_of_toInt_eq
  rw [BitVec.toInt_srem, toInt_ofNat_small n hn, toInt_ofNat_small d hd, toInt_ofNat_small _ hr]
  exact (Int.ofNat_tmod n d).symm

theorem msb_ofNat (hn : n < 2 ^ 31) : (BitVec.ofNat 32 n).msb = false := by
  rw [BitVec.msb_eq_false_iff_two_mul_lt]
  simp
  omega

/-- A positive small natural has sign one. -/
theorem sgn_ofNat_pos (hn0 : 0 < n) (hn : n < 2 ^ 31) : sgn (BitVec.ofNat 32 n) = 1#32 := by
  unfold sgn
  rw [if_neg (show ¬ BitVec.ofNat 32 n = 0 from ofNat_ne_zero hn0 hn), msb_ofNat hn]
  rfl

theorem slt_ofNat_zero (hn : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    unfold BitVec.slt
    rw [toInt_ofNat_small n hn]
    simp
  rw [this]; rfl

theorem eq_zero_ofNat (hd0 : 0 < d) (hd : d < 2 ^ 31) : IntOp.cmpi .eq (BitVec.ofNat 32 d) 0#32 = 0#1 := by
  show BitVec.ofBool (BitVec.ofNat 32 d == 0#32) = 0#1
  have : (BitVec.ofNat 32 d == 0#32) = false := by
    rw [beq_eq_false_iff_ne]; exact ofNat_ne_zero hd0 hd
  rw [this]; rfl

/-- `floor_divide` of two small naturals, the divisor positive, is their quotient: a positive dividend has the
    divisor's sign, and a zero dividend has remainder zero, so the correction never applies. -/
theorem floorDiv_ofNat (u : ArithUnit) (hn : n < 2 ^ 31) (hd0 : 0 < d) (hd : d < 2 ^ 31) :
    floorDiv u (BitVec.ofNat 32 n) (BitVec.ofNat 32 d) = BitVec.ofNat 32 (n / d) := by
  unfold floorDiv
  rw [divsi_ofNat u hn hd0 hd, remsi_ofNat u hn hd0 hd]
  have hc : IntOp.andi (IntOp.cmpi .ne (sgn (BitVec.ofNat 32 n)) (sgn (BitVec.ofNat 32 d)))
      (IntOp.cmpi .ne (BitVec.ofNat 32 (n % d)) 0#32) = 0#1 := by
    rcases Nat.eq_zero_or_pos n with h0 | hpos
    · subst h0
      have : IntOp.cmpi .ne (BitVec.ofNat 32 (0 % d)) 0#32 = 0#1 := by
        rw [Nat.zero_mod]; rfl
      rw [this]
      show _ &&& 0#1 = 0#1
      exact BitVec.and_zero
    · rw [sgn_ofNat_pos hpos hn, sgn_ofNat_pos hd0 hd]
      have : IntOp.cmpi .ne 1#32 1#32 = 0#1 := by decide
      rw [this]
      show 0#1 &&& _ = 0#1
      exact BitVec.zero_and
  rw [hc]
  exact select_zero _ _

/-- `remainder` of two small naturals, the divisor positive, is their remainder: it is not negative, as the
    divisor is not, so the correction never applies. -/
theorem pyMod_ofNat (u : ArithUnit) (hn : n < 2 ^ 31) (hd0 : 0 < d) (hd : d < 2 ^ 31) :
    pyMod u (BitVec.ofNat 32 n) (BitVec.ofNat 32 d) = BitVec.ofNat 32 (n % d) := by
  have hr : n % d < 2 ^ 31 := lt_of_le_of_lt (Nat.mod_le n d) hn
  unfold pyMod
  rw [eq_zero_ofNat hd0 hd, select_zero, remsi_ofNat u hn hd0 hd, slt_ofNat_zero hr, slt_ofNat_zero hd]
  have : IntOp.cmpi .ne 0#1 0#1 = 0#1 := by decide
  rw [this]
  have hz : ∀ b : BitVec 1, IntOp.andi 0#1 b = 0#1 := fun b => by
    show 0#1 &&& b = 0#1
    exact BitVec.zero_and
  rw [hz]
  exact select_zero _ _

end Cert.NatWords
-- ==== Proof.LibSelector.lean ====
/-
  Products with 0/1 selector matrices, and how such matrices are built on the host.

  A selector matrix has in each row (or column) a single one, at a position computed from the row (or column)
  number by an integer quotient or remainder; the host builds it by comparing a broadcast column of such
  positions with a broadcast row of position numbers and converting the resulting bit to a float. Read at an
  index it is `if position = number then 1 else 0`. A matrix product with it, on the extended reals, keeps the
  single term at the selected position: `0 * x = 0` and `1 * x = x` hold for every extended real, so no
  finiteness is needed.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value
import proofs.«176662_j19499151524244_2_alg».proof.Proof.LibNatWords

noncomputable section

open scoped BigOperators

namespace Cert.Selector

open Idealize.ShloMosaic Idealize.ShloMosaic.ValueIdx Cert.NatWords

/-! ## Broadcasts between ranks one and two, read at an index -/

section Broadcasts
variable {α : Type} {n k : Nat}

/-- A vector laid down a column: entry `(a, 0)` is entry `a`. -/
theorem bcast_vec_col (h : (⟨1, ![n]⟩ : Shape).BroadcastsInDim ⟨2, ![n, 1]⟩ ![0]) (x : (⟨1, ![n]⟩ : Shape).Idx → α)
    (a : Fin n) (z : Fin 1) : broadcastInDim ⟨2, ![n, 1]⟩ ![0] h x (ix2 a z) = x (ix1 a) :=
  broadcastInDim_apply _ h x _ _ (fun ax => match ax with
    | ⟨0, _⟩ => by
      show a.val = if n = 1 then 0 else a.val
      have := a.isLt; split <;> omega)

/-- A vector laid along a row: entry `(0, b)` is entry `b`. -/
theorem bcast_vec_row (h : (⟨1, ![k]⟩ : Shape).BroadcastsInDim ⟨2, ![1, k]⟩ ![1]) (x : (⟨1, ![k]⟩ : Shape).Idx → α)
    (z : Fin 1) (b : Fin k) : broadcastInDim ⟨2, ![1, k]⟩ ![1] h x (ix2 z b) = x (ix1 b) :=
  broadcastInDim_apply _ h x _ _ (fun ax => match ax with
    | ⟨0, _⟩ => by
      show b.val = if k = 1 then 0 else b.val
      have := b.isLt; split <;> omega)

/-- A column repeated across the columns: entry `(a, b)` is the column's entry `a`. -/
theorem bcast_col_mat (h : (⟨2, ![n, 1]⟩ : Shape).BroadcastsInDim ⟨2, ![n, k]⟩ ![0, 1]) (x : (⟨2, ![n, 1]⟩ : Shape).Idx → α)
    (a : Fin n) (b : Fin k) : broadcastInDim ⟨2, ![n, k]⟩ ![0, 1] h x (ix2 a b) = x (ix2 a (0 : Fin 1)) :=
  broadcastInDim_apply _ h x _ _ (fun ax => match ax with
    | ⟨0, _⟩ => by
      show a.val = if n = 1 then 0 else a.val
      have := a.isLt; split <;> omega
    | ⟨1, _⟩ => (if_pos rfl).symm)

/-- A row repeated down the rows: entry `(a, b)` is the row's entry `b`. -/
theorem bcast_row_mat (h : (⟨2, ![1, k]⟩ : Shape).BroadcastsInDim ⟨2, ![n, k]⟩ ![0, 1]) (x : (⟨2, ![1, k]⟩ : Shape).Idx → α)
    (a : Fin n) (b : Fin k) : broadcastInDim ⟨2, ![n, k]⟩ ![0, 1] h x (ix2 a b) = x (ix2 (0 : Fin 1) b) :=
  broadcastInDim_apply _ h x _ _ (fun ax => match ax with
    | ⟨0, _⟩ => (if_pos rfl).symm
    | ⟨1, _⟩ => by
      show b.val = if k = 1 then 0 else b.val
      have := b.isLt; split <;> omega)

end Broadcasts

/-! ## The integer quotient and remainder by a scalar, as arrays -/

section IntArrays
variable {T : Shape}

/-- jax's `floor_divide` of an integer array by an integer scalar, as it lowers to array operations. -/
def floorDivVec (hb : (⟨0, ![]⟩ : Shape).BroadcastsInDim T ![]) (x : IVec T 32) (y : IVec ⟨0, ![]⟩ 32) : IVec T 32 :=
  select
    (andi (cmpi .ne (signi x) (broadcastInDim T ![] hb (signi y)))
      (cmpi .ne (Host.remsi x (broadcastInDim T ![] hb y)) (broadcastInDim T ![] hb (constantI ⟨0, ![]⟩ 32 0#32))))
    (subi (Host.divsi x (broadcastInDim T ![] hb y)) (broadcastInDim T ![] hb (constantI ⟨0, ![]⟩ 32 1#32)))
    (Host.divsi x (broadcastInDim T ![] hb y))

/-- One element of it is the one-element `floor_divide` of the array's element and the scalar. -/
theorem floorDivVec_apply (hb : (⟨0, ![]⟩ : Shape).BroadcastsInDim T ![]) (x : IVec T 32) (y : IVec ⟨0, ![]⟩ 32) (j : T.Idx) :
    floorDivVec hb x y j = floorDiv .host (x j) (y ix0) := by
  show Scalar.select
    (IntOp.andi (IntOp.cmpi .ne (sgn (x j)) (broadcastInDim T ![] hb (signi y) j))
      (IntOp.cmpi .ne (IntOp.remsi .host (x j) (broadcastInDim T ![] hb y j)) (broadcastInDim T ![] hb (constantI ⟨0, ![]⟩ 32 0#32) j)))
    (IntOp.subi (IntOp.divsi .host (x j) (broadcastInDim T ![] hb y j)) (broadcastInDim T ![] hb (constantI ⟨0, ![]⟩ 32 1#32) j))
    (IntOp.divsi .host (x j) (broadcastInDim T ![] hb y j)) = _
  simp only [broadcastInDim_scalar_apply]
  rfl

/-- The divisor of jax's `remainder`: a zero replaced by one. -/
def safeDivisor (y : IVec ⟨0, ![]⟩ 32) : IVec ⟨0, ![]⟩ 32 :=
  select (cmpi .eq y (constantI ⟨0, ![]⟩ 32 0#32)) (constantI ⟨0, ![]⟩ 32 1#32) y

/-- jax's `remainder` of an integer array by an integer scalar, as it lowers to array operations. -/
def remainderVec (hb : (⟨0, ![]⟩ : Shape).BroadcastsInDim T ![]) (x : IVec T 32) (y : IVec ⟨0, ![]⟩ 32) : IVec T 32 :=
  select
    (andi
      (cmpi .ne (cmpi .slt (Host.remsi x (broadcastInDim T ![] hb (safeDivisor y))) (broadcastInDim T ![] hb (constantI ⟨0, ![]⟩ 32 0#32)))
        (broadcastInDim T ![] hb (cmpi .slt (safeDivisor y) (constantI ⟨0, ![]⟩ 32 0#32))))
      (cmpi .ne (Host.remsi x (broadcastInDim T ![] hb (safeDivisor y))) (broadcastInDim T ![] hb (constantI ⟨0, ![]⟩ 32 0#32))))
    (addi (Host.remsi x (broadcastInDim T ![] hb (safeDivisor y))) (broadcastInDim T ![] hb (safeDivisor y)))
    (Host.remsi x (broadcastInDim T ![] hb (safeDivisor y)))

/-- One element of it is the one-element `remainder` of the array's element and the scalar. -/
theorem remainderVec_apply (hb : (⟨0, ![]⟩ : Shape).BroadcastsInDim T ![]) (x : IVec T 32) (y : IVec ⟨0, ![]⟩ 32) (j : T.Idx) :
    remainderVec hb x y j = pyMod .host (x j) (y ix0) := by
  show Scalar.select
    (IntOp.andi
      (IntOp.cmpi .ne (IntOp.cmpi .slt (IntOp.remsi .host (x j) (broadcastInDim T ![] hb (safeDivisor y) j)) (broadcastInDim T ![] hb (constantI ⟨0, ![]⟩ 32 0#32) j))
        (broadcastInDim T ![] hb (cmpi .slt (safeDivisor y) (constantI ⟨0, ![]⟩ 32 0#32)) j))
      (IntOp.cmpi .ne (IntOp.remsi .host (x j) (broadcastInDim T ![] hb (safeDivisor y) j)) (broadcastInDim T ![] hb (constantI ⟨0, ![]⟩ 32 0#32) j)))
    (IntOp.addi (IntOp.remsi .host (x j) (broadcastInDim T ![] hb (safeDivisor y) j)) (broadcastInDim T ![] hb (safeDivisor y) j))
    (IntOp.remsi .host (x j) (broadcastInDim T ![] hb (safeDivisor y) j)) = _
  simp only [broadcastInDim_scalar_apply]
  rfl

end IntArrays

/-! ## A comparison bit as a float, and equality of small words -/

/-- A bit converted to a float is one or zero. -/
theorem uitofp_ofBool (p : Bool) : (FloatOps.uitofp (F := Ideal) .f32 (BitVec.ofBool p) : EReal) = if p then 1 else 0 := by
  cases p
  · show (((BitVec.ofBool false).toNat : ℝ) : EReal) = 0
    simp
  · show (((BitVec.ofBool true).toNat : ℝ) : EReal) = 1
    simp

/-- Two naturals below `2^32` have equal words exactly when they are equal. -/
theorem ofNat_beq_ofNat {a b : Nat} (ha : a < 2 ^ 32) (hb : b < 2 ^ 32) :
    (BitVec.ofNat 32 a == BitVec.ofNat 32 b) = decide (a = b) := by
  by_cases h : a = b
  · subst h; simp
  · rw [decide_eq_false h, beq_eq_false_iff_ne]
    intro e
    have e' := congrArg BitVec.toNat e
    simp at e'
    omega

/-- The selector entry the host computes from two small naturals: one when they are equal. -/
theorem uitofp_cmpi_eq {a b : Nat} (ha : a < 2 ^ 32) (hb : b < 2 ^ 32) :
    (FloatOps.uitofp (F := Ideal) .f32 (IntOp.cmpi .eq (BitVec.ofNat 32 a) (BitVec.ofNat 32 b)) : EReal) = if a = b then 1 else 0 := by
  show (FloatOps.uitofp (F := Ideal) .f32 (BitVec.ofBool (BitVec.ofNat 32 a == BitVec.ofNat 32 b)) : EReal) = _
  rw [uitofp_ofBool, ofNat_beq_ofNat ha hb]
  by_cases h : a = b
  · rw [decide_eq_true h, if_pos h]; rfl
  · rw [decide_eq_false h, if_neg h]; rfl

/-! ## Sums against a selector -/

/-- A selector row times a column: the column's entry at the selected position. -/
theorem sum_sel_mul {K : Nat} (v : Nat) (hv : v < K) (g : Fin K → EReal) :
    ∑ q : Fin K, (if v = q.val then (1 : EReal) else 0) * g q = g ⟨v, hv⟩ := by
  rw [Finset.sum_eq_single (⟨v, hv⟩ : Fin K)]
  · rw [if_pos rfl, one_mul]
  · intro b _ hb
    rw [if_neg (fun e => hb (Fin.ext e.symm)), zero_mul]
  · intro h; exact absurd (Finset.mem_univ _) h

/-- A row times a selector column: the row's entry at the selected position. -/
theorem sum_mul_sel {K : Nat} (v : Nat) (hv : v < K) (g : Fin K → EReal) :
    ∑ q : Fin K, g q * (if v = q.val then (1 : EReal) else 0) = g ⟨v, hv⟩ := by
  rw [Finset.sum_eq_single (⟨v, hv⟩ : Fin K)]
  · rw [if_pos rfl, mul_one]
  · intro b _ hb
    rw [if_neg (fun e => hb (Fin.ext e.symm)), mul_zero]
  · intro h; exact absurd (Finset.mem_univ _) h

/-! ## The plain matrix product into a zero accumulator -/

/-- An m×k by k×n product accumulated into zeros, read at an index: the sum over the contracted coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ q : Fin k, A (ix2 a q) * B (ix2 q b) := by
  show FloatOps.matmul (DotDims.plain m k n) prec A B (constant ⟨2, ![m, n]⟩ .f32 0x00000000#32) (ix2 a b) = _
  rw [Ideal.matmul_constant_zero_apply]
  exact (Ideal.dotGeneral_apply (DotDims.plain m k n) prec HostSchedule.single A B (ix2 a b)).symm.trans
    (StackMember.dotGeneral_plain_apply prec A B a b)

end Cert.Selector

end
-- ==== Proof.Selectors.lean ====
/-
  The four selector matrices the host builds before the kernel runs.

  With `r` a row number below 512, `k` below 8, `p`, `j`, `q` below 64 and `C` a column number below 4096:
  `P[r, k] = 1` when `r / 64 = k`, `Pb[r, p] = 1` when `r % 64 = p`, `Q[j, C] = 1` when `C / 64 = j`,
  `Qb[q, C] = 1` when `C % 64 = q`, and every other entry is `0`. Each is the host's comparison of a broadcast
  column (or row) of quotients or remainders by 64 of the row (or column) numbers with a broadcast row (or
  column) of position numbers, converted to a float.
-/
import proofs.«176662_j19499151524244_2_alg».proof.Proof.Gen.KernelIdeal.Frame
import proofs.«176662_j19499151524244_2_alg».proof.Proof.LibSelector
import Idealize.ShloMosaic.Lib.StableHlo.Run

noncomputable section

namespace Cert.KernelIdeal.Selectors

open Cert.KernelIdeal Cert.KernelIdeal.Gen Idealize.ShloMosaic Idealize.ShloMosaic.TcCoe Idealize.SL.Sem
open Idealize.ShloMosaic.StableHlo Idealize.ShloMosaic.ValueIdx Cert.NatWords Cert.Selector

/-- The scalar 64: the side of the second factor's matrices. -/
def c64 : IVec S_ 32 := constantI S_ 32 64#32

/-- The row numbers 0 … 511 of an output block, as a column. -/
def rowNo : IVec S512x1 32 := broadcastInDim S512x1 ![0] bcast_S512_S512x1_0 (iotaInDim S512 32 0)

/-- The column numbers 0 … 4095 of the output, as a row. -/
def colNo : IVec S1x4096 32 := broadcastInDim S1x4096 ![1] bcast_S4096_S1x4096_1 (iotaInDim S4096 32 0)

/-- `P`: row `r` selects position `r / 64` of 8. -/
def selP : FVec Ideal S512x8 .f32 := uitofp .f32 (cmpi .eq
  (broadcastInDim S512x8 ![0, 1] bcast_S512x1_S512x8_0_1 (floorDivVec bcast_S_S512x1 rowNo c64))
  (broadcastInDim S512x8 ![0, 1] bcast_S1x8_S512x8_0_1 (broadcastInDim S1x8 ![1] bcast_S8_S1x8_1 (iotaInDim S8 32 0))))

/-- `Pb`: row `r` selects position `r % 64` of 64. -/
def selPb : FVec Ideal S512x64 .f32 := uitofp .f32 (cmpi .eq
  (broadcastInDim S512x64 ![0, 1] bcast_S512x1_S512x64_0_1 (remainderVec bcast_S_S512x1 rowNo c64))
  (broadcastInDim S512x64 ![0, 1] bcast_S1x64_S512x64_0_1 (broadcastInDim S1x64 ![1] bcast_S64_S1x64_1 (iotaInDim S64 32 0))))

/-- `Q`: column `C` selects position `C / 64` of 64. -/
def selQ : FVec Ideal S64x4096 .f32 := uitofp .f32 (cmpi .eq
  (broadcastInDim S64x4096 ![0, 1] bcast_S1x4096_S64x4096_0_1 (floorDivVec bcast_S_S1x4096 colNo c64))
  (broadcastInDim S64x4096 ![0, 1] bcast_S64x1_S64x4096_0_1 (broadcastInDim S64x1 ![0] bcast_S64_S64x1_0 (iotaInDim S64 32 0))))

/-- `Qb`: column `C` selects position `C % 64` of 64. -/
def selQb : FVec Ideal S64x4096 .f32 := uitofp .f32 (cmpi .eq
  (broadcastInDim S64x4096 ![0, 1] bcast_S1x4096_S64x4096_0_1 (remainderVec bcast_S_S1x4096 colNo c64))
  (broadcastInDim S64x4096 ![0, 1] bcast_S64x1_S64x4096_0_1 (broadcastInDim S64x1 ![0] bcast_S64_S64x1_0 (iotaInDim S64 32 0))))

/-! ## The arrays the region finds are these -/

section Found
variable (m : (ℓ : Loc nD τ sig) → Buf (Elt Ideal) ℓ)

set_option maxHeartbeats 4000000 in
theorem found_P (c : Dev nD) : (V m c main_v8 : S512x8.Idx → EReal) = selP := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

set_option maxHeartbeats 4000000 in
theorem found_Pb (c : Dev nD) : (V m c main_v15 : S512x64.Idx → EReal) = selPb := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

set_option maxHeartbeats 4000000 in
theorem found_Q (c : Dev nD) : (V m c main_v24 : S64x4096.Idx → EReal) = selQ := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

set_option maxHeartbeats 4000000 in
theorem found_Qb (c : Dev nD) : (V m c main_v31 : S64x4096.Idx → EReal) = selQb := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

end Found

/-! ## The selectors read at an index -/

theorem rowNo_apply (r : Fin 512) (z : Fin 1) : rowNo (ix2 r z) = BitVec.ofNat 32 r.val := by
  unfold rowNo
  rw [bcast_vec_col]
  rfl

theorem colNo_apply (z : Fin 1) (C : Fin 4096) : colNo (ix2 z C) = BitVec.ofNat 32 C.val := by
  unfold colNo
  rw [bcast_vec_row]
  rfl

theorem selP_apply (r : Fin 512) (k : Fin 8) : selP (ix2 r k) = if r.val / 64 = k.val then 1 else 0 := by
  have hr := r.isLt
  have hk := k.isLt
  show FloatOps.uitofp (F := Ideal) .f32 (IntOp.cmpi .eq
    (broadcastInDim S512x8 ![0, 1] bcast_S512x1_S512x8_0_1 (floorDivVec bcast_S_S512x1 rowNo c64) (ix2 r k))
    (broadcastInDim S512x8 ![0, 1] bcast_S1x8_S512x8_0_1 (broadcastInDim S1x8 ![1] bcast_S8_S1x8_1 (iotaInDim S8 32 0)) (ix2 r k))) = _
  rw [bcast_col_mat, bcast_row_mat, bcast_vec_row, floorDivVec_apply, rowNo_apply]
  show FloatOps.uitofp (F := Ideal) .f32 (IntOp.cmpi .eq (floorDiv .host (BitVec.ofNat 32 r.val) (BitVec.ofNat 32 64)) (BitVec.ofNat 32 k.val)) = _
  rw [floorDiv_ofNat .host (by omega) (by omega) (by omega), uitofp_cmpi_eq (by omega) (by omega)]

theorem selPb_apply (r : Fin 512) (p : Fin 64) : selPb (ix2 r p) = if r.val % 64 = p.val then 1 else 0 := by
  have hr := r.isLt
  have hp := p.isLt
  show FloatOps.uitofp (F := Ideal) .f32 (IntOp.cmpi .eq
    (broadcastInDim S512x64 ![0, 1] bcast_S512x1_S512x64_0_1 (remainderVec bcast_S_S512x1 rowNo c64) (ix2 r p))
    (broadcastInDim S512x64 ![0, 1] bcast_S1x64_S512x64_0_1 (broadcastInDim S1x64 ![1] bcast_S64_S1x64_1 (iotaInDim S64 32 0)) (ix2 r p))) = _
  rw [bcast_col_mat, bcast_row_mat, bcast_vec_row, remainderVec_apply, rowNo_apply]
  show FloatOps.uitofp (F := Ideal) .f32 (IntOp.cmpi .eq (pyMod .host (BitVec.ofNat 32 r.val) (BitVec.ofNat 32 64)) (BitVec.ofNat 32 p.val)) = _
  rw [pyMod_ofNat .host (by omega) (by omega) (by omega), uitofp_cmpi_eq (by omega) (by omega)]

theorem selQ_apply (j : Fin 64) (C : Fin 4096) : selQ (ix2 j C) = if C.val / 64 = j.val then 1 else 0 := by
  have hj := j.isLt
  have hC := C.isLt
  show FloatOps.uitofp (F := Ideal) .f32 (IntOp.cmpi .eq
    (broadcastInDim S64x4096 ![0, 1] bcast_S1x4096_S64x4096_0_1 (floorDivVec bcast_S_S1x4096 colNo c64) (ix2 j C))
    (broadcastInDim S64x4096 ![0, 1] bcast_S64x1_S64x4096_0_1 (broadcastInDim S64x1 ![0] bcast_S64_S64x1_0 (iotaInDim S64 32 0)) (ix2 j C))) = _
  rw [bcast_row_mat, bcast_col_mat, bcast_vec_col, floorDivVec_apply, colNo_apply]
  show FloatOps.uitofp (F := Ideal) .f32 (IntOp.cmpi .eq (floorDiv .host (BitVec.ofNat 32 C.val) (BitVec.ofNat 32 64)) (BitVec.ofNat 32 j.val)) = _
  rw [floorDiv_ofNat .host (by omega) (by omega) (by omega), uitofp_cmpi_eq (by omega) (by omega)]

theorem selQb_apply (q : Fin 64) (C : Fin 4096) : selQb (ix2 q C) = if C.val % 64 = q.val then 1 else 0 := by
  have hq := q.isLt
  have hC := C.isLt
  show FloatOps.uitofp (F := Ideal) .f32 (IntOp.cmpi .eq
    (broadcastInDim S64x4096 ![0, 1] bcast_S1x4096_S64x4096_0_1 (remainderVec bcast_S_S1x4096 colNo c64) (ix2 q C))
    (broadcastInDim S64x4096 ![0, 1] bcast_S64x1_S64x4096_0_1 (broadcastInDim S64x1 ![0] bcast_S64_S64x1_0 (iotaInDim S64 32 0)) (ix2 q C))) = _
  rw [bcast_row_mat, bcast_col_mat, bcast_vec_col, remainderVec_apply, colNo_apply]
  show FloatOps.uitofp (F := Ideal) .f32 (IntOp.cmpi .eq (pyMod .host (BitVec.ofNat 32 C.val) (BitVec.ofNat 32 64)) (BitVec.ofNat 32 q.val)) = _
  rw [pyMod_ofNat .host (by omega) (by omega) (by omega), uitofp_cmpi_eq (by omega) (by omega)]

end Cert.KernelIdeal.Selectors

end
-- ==== Proof.Body.lean ====
/-
  What the kernel body stores, at one element of its output block.

  The body receives a block `a` of eight rows of `A[b]`, the whole matrix `B[b]`, the selectors `P`, `Pb` whole and
  1024 columns of `Q` and `Qb`, starting at column `C0`. With every product exact it stores, at row `r` (below
  512) and column `c` (below 1024) of its block,
    `(P · (a · Q))[r, c] * ((Pb · B[b]) · Qb)[r, c]`.
  Each of the four products has a selector as one factor, so each sum has one non-zero term:
  `(a · Q)[k, c] = a[k, (C0 + c) / 64]`, then `(P · …)[r, c] = a[r / 64, (C0 + c) / 64]`;
  `(Pb · B[b])[r, q] = B[b][r % 64, q]`, then `(… · Qb)[r, c] = B[b][r % 64, (C0 + c) % 64]`.
-/
import proofs.«176662_j19499151524244_2_alg».proof.Proof.Gen.KernelIdeal.Skeleton
import proofs.«176662_j19499151524244_2_alg».proof.Proof.LibSelector
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Selector

variable (x0 : Vec Ideal S1x8x64 .f32) (x1 : Vec Ideal S1x64x64 .f32) (xP : Vec Ideal S512x8 .f32)
  (xQ : Vec Ideal S64x1024 .f32) (xPb : Vec Ideal S512x64 .f32) (xQb : Vec Ideal S64x1024 .f32)

/-- The first factor spread over the block: `P · (a · Q)`. -/
def aBig : FVec Ideal S512x1024 .f32 :=
  matmul dot_S512x8_S8x1024_S512x1024_1_0_0_1_n_n (some .fp32) (shapeCast S512x8 xP shapeCasts_S512x8_S512x8 : FVec Ideal S512x8 .f32)
    (matmul dot_S8x64_S64x1024_S8x1024_1_0_0_1_n_n (some .fp32) (shapeCast S8x64 x0 shapeCasts_S1x8x64_S8x64 : FVec Ideal S8x64 .f32)
      (shapeCast S64x1024 xQ shapeCasts_S64x1024_S64x1024 : FVec Ideal S64x1024 .f32) (constant S8x1024 .f32 0x00000000#32))
    (constant S512x1024 .f32 0x00000000#32)

/-- The second factor tiled over the block: `(Pb · b) · Qb`. -/
def bBig : FVec Ideal S512x1024 .f32 :=
  matmul dot_S512x64_S64x1024_S512x1024_1_0_0_1_n_n (some .fp32)
    (matmul dot_S512x64_S64x64_S512x64_1_0_0_1_n_n (some .fp32) (shapeCast S512x64 xPb shapeCasts_S512x64_S512x64 : FVec Ideal S512x64 .f32)
      (shapeCast S64x64 x1 shapeCasts_S1x64x64_S64x64 : FVec Ideal S64x64 .f32) (constant S512x64 .f32 0x00000000#32))
    (shapeCast S64x1024 xQb shapeCasts_S64x1024_S64x1024 : FVec Ideal S64x1024 .f32) (constant S512x1024 .f32 0x00000000#32)

/-- The stored value is the elementwise product of the two, under a leading unit axis. -/
theorem payload_eq : k0_pay1 x0 x1 xQ xP xPb xQb
    = shapeCast S1x512x1024 (mulf (aBig x0 xP xQ) (bBig x1 xPb xQb)) shapeCasts_S512x1024_S1x512x1024 := rfl

variable (C0 : Nat) (hC0 : C0 + 1024 ≤ 4096)

theorem aBig_apply
    (hP : ∀ (r : Fin 512) (k : Fin 8), xP (ix2 r k) = if r.val / 64 = k.val then 1 else 0)
    (hQ : ∀ (j : Fin 64) (c : Fin 1024), xQ (ix2 j c) = if (C0 + c.val) / 64 = j.val then 1 else 0)
    (r : Fin 512) (c : Fin 1024) :
    aBig x0 xP xQ (ix2 r c)
      = x0 (ix3 (0 : Fin 1) (⟨r.val / 64, by have := r.isLt; omega⟩ : Fin 8)
          (⟨(C0 + c.val) / 64, by have := c.isLt; omega⟩ : Fin 64)) := by
  have hr := r.isLt
  have hc := c.isLt
  show matmul (DotDims.plain 512 8 1024) (some .fp32) (shapeCast S512x8 xP shapeCasts_S512x8_S512x8 : FVec Ideal S512x8 .f32)
    (matmul (DotDims.plain 8 64 1024) (some .fp32) (shapeCast S8x64 x0 shapeCasts_S1x8x64_S8x64 : FVec Ideal S8x64 .f32)
      (shapeCast S64x1024 xQ shapeCasts_S64x1024_S64x1024 : FVec Ideal S64x1024 .f32) (constant ⟨2, ![8, 1024]⟩ .f32 0x00000000#32))
    (constant ⟨2, ![512, 1024]⟩ .f32 0x00000000#32) (ix2 r c) = _
  rw [matmul_plain_zero_apply]
  refine (Finset.sum_congr rfl (fun q _ => ?_)).trans
    (sum_sel_mul (r.val / 64) (by omega) (fun q => x0 (ix3 (0 : Fin 1) q (⟨(C0 + c.val) / 64, by omega⟩ : Fin 64))))
  rw [shapeCast_self, hP, matmul_plain_zero_apply]
  refine congrArg (fun z => (if r.val / 64 = q.val then (1 : EReal) else 0) * z) ?_
  refine (Finset.sum_congr rfl (fun j _ => ?_)).trans
    (sum_mul_sel ((C0 + c.val) / 64) (by omega) (fun j => x0 (ix3 (0 : Fin 1) q j)))
  rw [shapeCast_1ab_ab_apply, shapeCast_self, hQ]

theorem bBig_apply
    (hPb : ∀ (r : Fin 512) (p : Fin 64), xPb (ix2 r p) = if r.val % 64 = p.val then 1 else 0)
    (hQb : ∀ (q : Fin 64) (c : Fin 1024), xQb (ix2 q c) = if (C0 + c.val) % 64 = q.val then 1 else 0)
    (r : Fin 512) (c : Fin 1024) :
    bBig x1 xPb xQb (ix2 r c)
      = x1 (ix3 (0 : Fin 1) (⟨r.val % 64, by omega⟩ : Fin 64) (⟨(C0 + c.val) % 64, by omega⟩ : Fin 64)) := by
  show matmul (DotDims.plain 512 64 1024) (some .fp32)
    (matmul (DotDims.plain 512 64 64) (some .fp32) (shapeCast S512x64 xPb shapeCasts_S512x64_S512x64 : FVec Ideal S512x64 .f32)
      (shapeCast S64x64 x1 shapeCasts_S1x64x64_S64x64 : FVec Ideal S64x64 .f32) (constant ⟨2, ![512, 64]⟩ .f32 0x00000000#32))
    (shapeCast S64x1024 xQb shapeCasts_S64x1024_S64x1024 : FVec Ideal S64x1024 .f32) (constant ⟨2, ![512, 1024]⟩ .f32 0x00000000#32) (ix2 r c) = _
  rw [matmul_plain_zero_apply]
  refine (Finset.sum_congr rfl (fun q _ => ?_)).trans
    (sum_mul_sel ((C0 + c.val) % 64) (by omega) (fun q => x1 (ix3 (0 : Fin 1) (⟨r.val % 64, by omega⟩ : Fin 64) q)))
  simp only [shapeCast_self]
  rw [hQb, matmul_plain_zero_apply]
  refine congrArg (fun z => z * (if (C0 + c.val) % 64 = q.val then (1 : EReal) else 0)) ?_
  refine (Finset.sum_congr rfl (fun p _ => ?_)).trans
    (sum_sel_mul (r.val % 64) (by omega) (fun p => x1 (ix3 (0 : Fin 1) p q)))
  rw [hPb, shapeCast_1ab_ab_apply]

/-- The stored element: the entry of the first factor's block for the row's and column's quotients by 64, times the
    entry of the second factor for their remainders. -/
theorem payload_apply
    (hP : ∀ (r : Fin 512) (k : Fin 8), xP (ix2 r k) = if r.val / 64 = k.val then 1 else 0)
    (hQ : ∀ (j : Fin 64) (c : Fin 1024), xQ (ix2 j c) = if (C0 + c.val) / 64 = j.val then 1 else 0)
    (hPb : ∀ (r : Fin 512) (p : Fin 64), xPb (ix2 r p) = if r.val % 64 = p.val then 1 else 0)
    (hQb : ∀ (q : Fin 64) (c : Fin 1024), xQb (ix2 q c) = if (C0 + c.val) % 64 = q.val then 1 else 0)
    (u : Fin 1) (r : Fin 512) (c : Fin 1024) :
    k0_pay1 x0 x1 xQ xP xPb xQb (ix3 u r c)
      = x0 (ix3 (0 : Fin 1) (⟨r.val / 64, by have := r.isLt; omega⟩ : Fin 8)
            (⟨(C0 + c.val) / 64, by have := c.isLt; omega⟩ : Fin 64))
        * x1 (ix3 (0 : Fin 1) (⟨r.val % 64, by omega⟩ : Fin 64) (⟨(C0 + c.val) % 64, by omega⟩ : Fin 64)) := by
  rw [payload_eq, shapeCast_ab_1ab_apply]
  show aBig x0 xP xQ (ix2 r c) * bBig x1 xPb xQb (ix2 r c) = _
  rw [aBig_apply x0 xP xQ C0 hC0 hP hQ r c, bBig_apply x1 xPb xQb C0 hPb hQb r c]

end Cert.KernelIdeal.Body

end
-- ==== Proof.GridFacts.lean ====
/-
  How the kernel's windows move over its grid.

  The grid has a point for each batch member (8), block of eight rows of the first factor (8) and block of 1024
  output columns (4): 256 points. The relations between the windows' block indices at a point, and that every
  (batch, row block, column block) is some point's, are decided by running over the points.
-/
import proofs.«176662_j19499151524244_2_alg».proof.Proof.Gen.KernelIdeal.Frame

noncomputable section

namespace Cert.KernelIdeal.KronValue

open Cert.KernelIdeal Cert.KernelIdeal.Gen Idealize.ShloMosaic Idealize.ShloMosaic.TcCoe Idealize.SL.Sem

theorem zero3 : (![0, 0, 0] : Fin 3 → Nat) = fun _ => 0 := funext fun a => by fin_cases a <;> rfl
theorem zero2 : (![0, 0] : Fin 2 → Nat) = fun _ => 0 := funext fun a => by fin_cases a <;> rfl

/-- How the windows' block indices depend on the grid point: the first factor's block follows the output's batch and
    row block, the second factor's the batch, `Q` and `Qb` the column block, `P` and `Pb` stay. -/
theorem index_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = win0_6.index t (2 : Fin 3)
    ∧ win0_4.index t (0 : Fin 2) = 0 ∧ win0_4.index t (1 : Fin 2) = 0
    ∧ win0_5.index t (0 : Fin 2) = 0 ∧ win0_5.index t (1 : Fin 2) = win0_6.index t (2 : Fin 3)
    ∧ win0_6.index t (0 : Fin 3) < 8 ∧ win0_6.index t (1 : Fin 3) < 8 ∧ win0_6.index t (2 : Fin 3) < 4 :=
  (by decide +kernel : ∀ t : Fin grid0.N, _)

/-- Every (batch, row block, column block) is some point's output block. -/
theorem index_onto : ∀ (q0 : Fin 8) (q1 : Fin 8) (q2 : Fin 4), ∃ t : Fin cfg0.N, win0_6.index t = ![q0.val, q1.val, q2.val] :=
  (by decide +kernel : ∀ (q0 : Fin 8) (q1 : Fin 8) (q2 : Fin 4), ∃ t : Fin grid0.N, win0_6.index t = ![q0.val, q1.val, q2.val])

end Cert.KernelIdeal.KronValue

end
-- ==== Proof.Blocks.lean ====
/-
  The output array after the kernel's run is the Kronecker product of the argument arrays.

  The grid has a point for each batch member `b` (8), block of eight rows `i` of the first factor (8) and block of
  1024 output columns `jc` (4). The point's output block is batch `b`, rows `i * 512 …`, columns `jc * 1024 …` of
  the output; its input blocks are rows `i * 8 …` of `A[b]`, all of `B[b]`, all of `P` and `Pb`, and columns
  `jc * 1024 …` of `Q` and `Qb`. At row `r`, column `c` of the block the body stores
  `A[b][i * 8 + r / 64, (jc * 1024 + c) / 64] * B[b][r % 64, (jc * 1024 + c) % 64]`, which is the Kronecker
  product's entry at row `R = i * 512 + r`, column `C = jc * 1024 + c`: `R / 64 = i * 8 + r / 64` and
  `R % 64 = r % 64`. Every output index lies in the block of the point `(b, R / 512, C / 1024)`.
-/
import proofs.«176662_j19499151524244_2_alg».proof.Proof.Gen.KernelIdeal.Value
import proofs.«176662_j19499151524244_2_alg».proof.Proof.Selectors
import proofs.«176662_j19499151524244_2_alg».proof.Proof.Body
import proofs.«176662_j19499151524244_2_alg».proof.Proof.Spec
import proofs.«176662_j19499151524244_2_alg».proof.Proof.GridFacts

noncomputable section

namespace Cert.KernelIdeal.KronValue

open Cert.KernelIdeal Cert.KernelIdeal.Gen Idealize.ShloMosaic Idealize.ShloMosaic.TcCoe Idealize.SL.Sem
open Idealize.ShloMosaic.Pipeline (Dat)
open Idealize.ShloMosaic.ValueIdx Cert.Kron Cert.KernelIdeal.Selectors

variable (m : (ℓ : Loc nD τ sig) → Buf (Elt Ideal) ℓ) (ρ : Dev nD → PrngReg)

/-! ## The input blocks at a point -/

theorem blk_P (c : Dev nD) (t : Fin cfg0.N) (r : Fin 512) (k : Fin 8) :
    @Eq EReal (iblk m c 2 t (ix2 r k)) (if r.val / 64 = k.val then 1 else 0) := by
  obtain ⟨-, -, -, -, -, -, e0, e1, -⟩ := index_facts t
  show (V m c main_v8 : S512x8.Idx → EReal) (((cfg0.win 2).blk t).view.emb (ix2 r k)) = _
  have h : ((cfg0.win 2).blk t).view.emb (ix2 r k) = ix2 r k := by
    funext a; apply Fin.ext
    match a with
    | ⟨0, _⟩ => show win0_2.index t (0 : Fin 2) * 512 + 1 * r.val = r.val; omega
    | ⟨1, _⟩ => show win0_2.index t (1 : Fin 2) * 8 + 1 * k.val = k.val; omega
  rw [h, found_P]
  exact selP_apply r k

theorem blk_Pb (c : Dev nD) (t : Fin cfg0.N) (r : Fin 512) (p : Fin 64) :
    @Eq EReal (iblk m c 4 t (ix2 r p)) (if r.val % 64 = p.val then 1 else 0) := by
  obtain ⟨-, -, -, -, -, -, -, -, -, -, e0, e1, -⟩ := index_facts t
  show (V m c main_v15 : S512x64.Idx → EReal) (((cfg0.win 4).blk t).view.emb (ix2 r p)) = _
  have h : ((cfg0.win 4).blk t).view.emb (ix2 r p) = ix2 r p := by
    funext a; apply Fin.ext
    match a with
    | ⟨0, _⟩ => show win0_4.index t (0 : Fin 2) * 512 + 1 * r.val = r.val; omega
    | ⟨1, _⟩ => show win0_4.index t (1 : Fin 2) * 64 + 1 * p.val = p.val; omega
  rw [h, found_Pb]
  exact selPb_apply r p

theorem blk_Q (c : Dev nD) (t : Fin cfg0.N) (j : Fin 64) (cc : Fin 1024) :
    @Eq EReal (iblk m c 3 t (ix2 j cc)) (if (win0_6.index t (2 : Fin 3) * 1024 + cc.val) / 64 = j.val then 1 else 0) := by
  obtain ⟨-, -, -, -, -, -, -, -, e0, e1, -, -, -, -, -, -, h2⟩ := index_facts t
  have hcc := cc.isLt
  show (V m c main_v24 : S64x4096.Idx → EReal) (((cfg0.win 3).blk t).view.emb (ix2 j cc)) = _
  have h : ((cfg0.win 3).blk t).view.emb (ix2 j cc)
      = ix2 j (⟨win0_6.index t (2 : Fin 3) * 1024 + cc.val, by omega⟩ : Fin 4096) := by
    funext a; apply Fin.ext
    match a with
    | ⟨0, _⟩ => show win0_3.index t (0 : Fin 2) * 64 + 1 * j.val = j.val; omega
    | ⟨1, _⟩ => show win0_3.index t (1 : Fin 2) * 1024 + 1 * cc.val = win0_6.index t (2 : Fin 3) * 1024 + cc.val; omega
  rw [h, found_Q]
  exact selQ_apply j _

theorem blk_Qb (c : Dev nD) (t : Fin cfg0.N) (q : Fin 64) (cc : Fin 1024) :
    @Eq EReal (iblk m c 5 t (ix2 q cc)) (if (win0_6.index t (2 : Fin 3) * 1024 + cc.val) % 64 = q.val then 1 else 0) := by
  obtain ⟨-, -, -, -, -, -, -, -, -, -, -, -, e0, e1, -, -, h2⟩ := index_facts t
  have hcc := cc.isLt
  show (V m c main_v31 : S64x4096.Idx → EReal) (((cfg0.win 5).blk t).view.emb (ix2 q cc)) = _
  have h : ((cfg0.win 5).blk t).view.emb (ix2 q cc)
      = ix2 q (⟨win0_6.index t (2 : Fin 3) * 1024 + cc.val, by omega⟩ : Fin 4096) := by
    funext a; apply Fin.ext
    match a with
    | ⟨0, _⟩ => show win0_5.index t (0 : Fin 2) * 64 + 1 * q.val = q.val; omega
    | ⟨1, _⟩ => show win0_5.index t (1 : Fin 2) * 1024 + 1 * cc.val = win0_6.index t (2 : Fin 3) * 1024 + cc.val; omega
  rw [h, found_Qb]
  exact selQb_apply q _

/-- The first factor's block: eight rows of the batch member's matrix. -/
theorem blk_A (c : Dev nD) (t : Fin cfg0.N) (k : Fin 8) (j : Fin 64) (hb : win0_6.index t (0 : Fin 3) < 8)
    (hi : win0_6.index t (1 : Fin 3) * 8 + k.val < 64) :
    @Eq EReal (iblk m c 0 t (ix3 (0 : Fin 1) k j))
      ((V m c main_arg0 : S8x64x64.Idx → EReal) (ix3 (⟨win0_6.index t (0 : Fin 3), hb⟩ : Fin 8)
          (⟨win0_6.index t (1 : Fin 3) * 8 + k.val, hi⟩ : Fin 64) j)) := by
  obtain ⟨e0, e1, e2, -⟩ := index_facts t
  show (V m c main_arg0 : S8x64x64.Idx → EReal) (((cfg0.win 0).blk t).view.emb (ix3 (0 : Fin 1) k j)) = _
  have h : ((cfg0.win 0).blk t).view.emb (ix3 (0 : Fin 1) k j)
      = ix3 (⟨win0_6.index t (0 : Fin 3), hb⟩ : Fin 8) (⟨win0_6.index t (1 : Fin 3) * 8 + k.val, hi⟩ : Fin 64) j := by
    funext a; apply Fin.ext
    match a with
    | ⟨0, _⟩ => show win0_0.index t (0 : Fin 3) * 1 + 1 * 0 = win0_6.index t (0 : Fin 3); omega
    | ⟨1, _⟩ => show win0_0.index t (1 : Fin 3) * 8 + 1 * k.val = win0_6.index t (1 : Fin 3) * 8 + k.val; omega
    | ⟨2, _⟩ => show win0_0.index t (2 : Fin 3) * 64 + 1 * j.val = j.val; omega
  rw [h]

/-- The second factor's block: the batch member's whole matrix. -/
theorem blk_B (c : Dev nD) (t : Fin cfg0.N) (p : Fin 64) (q : Fin 64) (hb : win0_6.index t (0 : Fin 3) < 8) :
    @Eq EReal (iblk m c 1 t (ix3 (0 : Fin 1) p q))
      ((V m c main_arg1 : S8x64x64.Idx → EReal) (ix3 (⟨win0_6.index t (0 : Fin 3), hb⟩ : Fin 8) p q)) := by
  obtain ⟨-, -, -, e0, e1, e2, -⟩ := index_facts t
  show (V m c main_arg1 : S8x64x64.Idx → EReal) (((cfg0.win 1).blk t).view.emb (ix3 (0 : Fin 1) p q)) = _
  have h : ((cfg0.win 1).blk t).view.emb (ix3 (0 : Fin 1) p q) = ix3 (⟨win0_6.index t (0 : Fin 3), hb⟩ : Fin 8) p q := by
    funext a; apply Fin.ext
    match a with
    | ⟨0, _⟩ => show win0_1.index t (0 : Fin 3) * 1 + 1 * 0 = win0_6.index t (0 : Fin 3); omega
    | ⟨1, _⟩ => show win0_1.index t (1 : Fin 3) * 64 + 1 * p.val = p.val; omega
    | ⟨2, _⟩ => show win0_1.index t (2 : Fin 3) * 64 + 1 * q.val = q.val; omega
  rw [h]

/-- Where the output block's element `(u, r, cc)` sits in the output array. -/
theorem emb_out (t : Fin cfg0.N) (u : Fin 1) (r : Fin 512) (cc : Fin 1024) (hb : win0_6.index t (0 : Fin 3) < 8)
    (hR : win0_6.index t (1 : Fin 3) * 512 + r.val < 4096) (hC : win0_6.index t (2 : Fin 3) * 1024 + cc.val < 4096) :
    ((cfg0.win 6).blk t).view.emb (ix3 u r cc)
      = ix3 (⟨win0_6.index t (0 : Fin 3), hb⟩ : Fin 8) (⟨win0_6.index t (1 : Fin 3) * 512 + r.val, hR⟩ : Fin 4096)
          (⟨win0_6.index t (2 : Fin 3) * 1024 + cc.val, hC⟩ : Fin 4096) := by
  have hu : u.val = 0 := by omega
  funext a; apply Fin.ext
  match a with
  | ⟨0, _⟩ => show win0_6.index t (0 : Fin 3) * 1 + 1 * u.val = win0_6.index t (0 : Fin 3); omega
  | ⟨1, _⟩ => show win0_6.index t (1 : Fin 3) * 512 + 1 * r.val = win0_6.index t (1 : Fin 3) * 512 + r.val; omega
  | ⟨2, _⟩ => show win0_6.index t (2 : Fin 3) * 1024 + 1 * cc.val = win0_6.index t (2 : Fin 3) * 1024 + cc.val; omega

/-- The Kronecker product at an index given by its coordinates. -/
theorem kron_apply (A B : (⟨3, ![8, 64, 64]⟩ : Shape).Idx → EReal) (b : Fin 8) (R C : Fin 4096) :
    kron A B (ix3 b R C)
      = A (ix3 b (⟨R.val / 64, by have := R.isLt; omega⟩ : Fin 64) (⟨C.val / 64, by have := C.isLt; omega⟩ : Fin 64))
        * B (ix3 b (⟨R.val % 64, by omega⟩ : Fin 64) (⟨C.val % 64, by omega⟩ : Fin 64)) := rfl

/-! ## What a point writes back -/

/-- Point `t` writes block `t` of the Kronecker product of the argument arrays. -/
theorem flushed_eq (c : Dev nD) (t : Fin cfg0.N) :
    (dats m 0 c).flushed 6 t
      = ((cfg0.win 6).blk t).view.read (Elt Ideal) (kron (V m c main_arg0) (V m c main_arg1)) := by
  rw [Value.flushed6]
  unfold out0_6
  rw [View.canon_unit_zero zero3]
  simp only [View.ld_unit_zero (S := S1x8x64) zero3, View.ld_unit_zero (S := S1x64x64) zero3,
    View.ld_unit_zero (S := S64x1024) zero2, View.ld_unit_zero (S := S512x8) zero2, View.ld_unit_zero (S := S512x64) zero2]
  obtain ⟨-, -, -, -, -, -, -, -, -, -, -, -, -, -, hb, hi, hj⟩ := index_facts t
  funext y
  obtain ⟨u, r, cc, rfl⟩ : ∃ (u : Fin 1) (r : Fin 512) (cc : Fin 1024), y = ix3 u r cc := ⟨y 0, y 1, y 2, eq_ix3 y⟩
  have hr := r.isLt
  have hcc := cc.isLt
  show k0_pay1 (iblk m c 0 t) (iblk m c 1 t) (iblk m c 3 t) (iblk m c 2 t) (iblk m c 4 t) (iblk m c 5 t) (ix3 u r cc)
    = kron (V m c main_arg0) (V m c main_arg1) (((cfg0.win 6).blk t).view.emb (ix3 u r cc))
  rw [Body.payload_apply (iblk m c 0 t) (iblk m c 1 t) (iblk m c 2 t) (iblk m c 3 t) (iblk m c 4 t) (iblk m c 5 t)
      (win0_6.index t (2 : Fin 3) * 1024) (by omega) (blk_P m c t) (blk_Q m c t) (blk_Pb m c t) (blk_Qb m c t) u r cc,
    emb_out t u r cc hb (by omega) (by omega), kron_apply,
    blk_A m c t _ _ hb (by show win0_6.index t (1 : Fin 3) * 8 + r.val / 64 < 64; omega), blk_B m c t _ _ hb]
  have e1 : (⟨win0_6.index t (1 : Fin 3) * 8 + r.val / 64, by omega⟩ : Fin 64)
      = ⟨(win0_6.index t (1 : Fin 3) * 512 + r.val) / 64, by omega⟩ :=
    Fin.ext (by show win0_6.index t (1 : Fin 3) * 8 + r.val / 64 = (win0_6.index t (1 : Fin 3) * 512 + r.val) / 64; omega)
  have e2 : (⟨r.val % 64, by omega⟩ : Fin 64) = ⟨(win0_6.index t (1 : Fin 3) * 512 + r.val) % 64, by omega⟩ :=
    Fin.ext (by show r.val % 64 = (win0_6.index t (1 : Fin 3) * 512 + r.val) % 64; omega)
  rw [e1, e2]

/-! ## The whole array -/

/-- An output index is in point `t`'s block iff each coordinate is in the block's range on its axis. -/
theorem mem_blk (t : Fin cfg0.N) (i : S8x4096x4096.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v32).slice (win0_6.rect t)).set ↔ _
  rw [View.set_slice_whole, Rect.mem_set_unit]
  exact Iff.rfl

/-- Every output index is in some point's block. -/
theorem cover (i : S8x4096x4096.Idx) :
    ∃ t : Fin cfg0.N, (cfg0.win 6).flush t = true ∧ i ∈ ((cfg0.win 6).blk t).view.set := by
  have h0 : (i 0).val < 8 := (i 0).isLt
  have h1 : (i 1).val < 4096 := (i 1).isLt
  have h2 : (i 2).val < 4096 := (i 2).isLt
  obtain ⟨t, ht⟩ := index_onto ⟨(i 0).val, h0⟩ ⟨(i 1).val / 512, by omega⟩ ⟨(i 2).val / 1024, by omega⟩
  have q0 : win0_6.index t (0 : Fin 3) = (i 0).val := congrFun ht 0
  have q1 : win0_6.index t (1 : Fin 3) = (i 1).val / 512 := congrFun ht 1
  have q2 : win0_6.index t (2 : Fin 3) = (i 2).val / 1024 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- After the run the output array is the Kronecker product of the argument arrays as launched. -/
theorem final (c : Dev nD) : (dats m 0 c).arrAt 6 cfg0.N
    = kron (m ((c : Thread nD τ).loc main_arg0)) (m ((c : Thread nD τ).loc main_arg1)) := by
  rw [← V_main_arg0 m c, ← V_main_arg1 m c]
  exact (dats m 0 c).arrAt_eq_of_cover 6 (kron (V m c main_arg0) (V m c main_arg1)) (fun t _ => flushed_eq m c t) cover

/-- The kernel's run: the output array ends as the Kronecker product of the arguments, the arguments unchanged. -/
theorem run : θ_run defs (onTc (τ := τ) (main (F := Ideal))) ⟨m, fun _ => 0, ρ⟩ fun r => ∀ c : Dev nD,
      r.2.mem ((c : Thread nD τ).loc main_v32) = kron (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KronValue

end
-- ==== Proof.lean ====
/-
  A batched Kronecker product computed two ways.

  For a batch of eight pairs of 64 × 64 matrices the result holds, in batch member `b`, row `R` and column `C` (both
  below 4096), the product `A[b][R / 64, C / 64] * B[b][R % 64, C % 64]`.

  The reference forms every product `A[b][i, j] * B[b][p, q]` in an array indexed `(b, i, p, j, q)` and reshapes it
  to `(b, i * 64 + p, j * 64 + q)` (Proof/Spec.lean).

  The kernel works on blocks of 512 rows by 1024 columns of one batch member's result. It first spreads the two
  factors over the block by products with 0/1 selector matrices which the program computes beforehand from row and
  column numbers by integer quotients and remainders by 64 (Proof/Selectors.lean, over Proof/LibNatWords.lean and
  Proof/LibSelector.lean): `P · (a · Q)` holds `A[b][R / 64, C / 64]` and `(Pb · B[b]) · Qb` holds
  `B[b][R % 64, C % 64]` at the block's entry for `(R, C)`, each sum having a single non-zero term; it then multiplies
  the two entry by entry (Proof/Body.lean). The blocks tile the result, so the whole array is the Kronecker product
  (Proof/Blocks.lean).

  On the extended reals `0 * x = 0` and `1 * x = x` for every `x`, so the two programs agree on all inputs and the
  finiteness of the inputs is not used. The kernel's text has no operation that reads differently on exact values,
  so the statement relating it to its exact reading is empty.
-/
import proofs.«176662_j19499151524244_2_alg».proof.Defs
import proofs.«176662_j19499151524244_2_alg».proof.Proof.Gen.Kernel
import proofs.«176662_j19499151524244_2_alg».proof.Proof.Gen.Kernel.Frame
import proofs.«176662_j19499151524244_2_alg».proof.Proof.Gen.KernelIdeal
import proofs.«176662_j19499151524244_2_alg».proof.Proof.Gen.KernelIdeal.Frame
import proofs.«176662_j19499151524244_2_alg».proof.Proof.Gen.KernelIdeal.Value
import proofs.«176662_j19499151524244_2_alg».proof.Proof.Gen.ReferenceIdeal
import proofs.«176662_j19499151524244_2_alg».proof.Proof.Gen.ReferenceIdeal.Run
import proofs.«176662_j19499151524244_2_alg».proof.Proof.Gen.ReferenceIdeal.Read
import proofs.«176662_j19499151524244_2_alg».proof.Proof.Gen.Pre_finite_inputs
import proofs.«176662_j19499151524244_2_alg».proof.Proof.Spec
import proofs.«176662_j19499151524244_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the Kronecker product of their (equal) argument arrays. -/
theorem algebraic : Cert.algebraic_KernelIdeal_ReferenceIdeal := by
  intro m ρ m' ρ' _ hagree
  refine ⟨fun c => Cert.Kron.kron (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KronValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Kron.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
